-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S8 : Shape := ⟨1, ![8]⟩
abbrev S8x2048x2048 : Shape := ⟨3, ![8, 2048, 2048]⟩
abbrev S8x2048 : Shape := ⟨2, ![8, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8 : S_.BroadcastsInDim S8 (![] : Fin 0 → Fin S8.rank)
  reducesTo_S8_S_d0 : S8.ReducesTo [0] S_
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  main_v18

def fn {F : FTy → Type} [FloatOps F] (main_arg0 : FVec F S4096x2048 .f32) (main_arg1 : IVec S4096 1) (main_arg2 : FVec F S8 .f32) (main_arg3 : FVec F S8x2048x2048 .f32) (main_arg4 : FVec F S8x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S8 .f32 := Host.absf main_arg2
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S8x2048x2048 .f32 := Host.absf main_arg3
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S8x2048 .f32 := Host.absf main_arg4
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_v13 main_v16
-- ==== Kernel.lean ====
abbrev S4096x2048 : Shape := ⟨2, ![4096, 2048]⟩
abbrev S4096 : Shape := ⟨1, ![4096]⟩
abbrev S8 : Shape := ⟨1, ![8]⟩
abbrev S8x2048x2048 : Shape := ⟨3, ![8, 2048, 2048]⟩
abbrev S8x2048 : Shape := ⟨2, ![8, 2048]⟩
abbrev S4096x1 : Shape := ⟨2, ![4096, 1]⟩
abbrev S1x8 : Shape := ⟨2, ![1, 8]⟩
abbrev S8x1x2048 : Shape := ⟨3, ![8, 1, 2048]⟩
abbrev S1024x2048 : Shape := ⟨2, ![1024, 2048]⟩
abbrev S1024x1 : Shape := ⟨2, ![1024, 1]⟩
abbrev S8x2048x256 : Shape := ⟨3, ![8, 2048, 256]⟩
abbrev S8x1x256 : Shape := ⟨3, ![8, 1, 256]⟩
abbrev S1024x256 : Shape := ⟨2, ![1024, 256]⟩
abbrev S1x1x8 : Shape := ⟨3, ![1, 1, 8]⟩
abbrev S1 : Shape := ⟨1, ![1]⟩
abbrev S1x1x1 : Shape := ⟨3, ![1, 1, 1]⟩
abbrev S1x2048x256 : Shape := ⟨3, ![1, 2048, 256]⟩
abbrev S2048x256 : Shape := ⟨2, ![2048, 256]⟩
abbrev S1x1x256 : Shape := ⟨3, ![1, 1, 256]⟩
abbrev S1x256 : Shape := ⟨2, ![1, 256]⟩

abbrev nBuf : Space → Nat
  | .hbm => 10
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096, .i1⟩
  | .hbm, ⟨2, _⟩ => ⟨S8, .f32⟩
  | .hbm, ⟨3, _⟩ => ⟨S8x2048x2048, .f32⟩
  | .hbm, ⟨4, _⟩ => ⟨S8x2048, .f32⟩
  | .hbm, ⟨5, _⟩ => ⟨S4096x1, .i1⟩
  | .hbm, ⟨6, _⟩ => ⟨S1x8, .f32⟩
  | .hbm, ⟨7, _⟩ => ⟨S8x1x2048, .f32⟩
  | .hbm, ⟨8, _⟩ => ⟨S4096x1, .i32⟩
  | .hbm, ⟨9, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x1, .i32⟩
  | .local _ .vmem, ⟨3, _⟩ => ⟨S1024x1, .i32⟩
  | .local _ .vmem, ⟨4, _⟩ => ⟨S1x8, .f32⟩
  | .local _ .vmem, ⟨5, _⟩ => ⟨S8x2048x256, .f32⟩
  | .local _ .vmem, ⟨6, _⟩ => ⟨S8x2048x256, .f32⟩
  | .local _ .vmem, ⟨7, _⟩ => ⟨S8x1x256, .f32⟩
  | .local _ .vmem, ⟨8, _⟩ => ⟨S8x1x256, .f32⟩
  | .local _ .vmem, ⟨9, _⟩ => ⟨S1024x256, .f32⟩
  | .local _ .vmem, ⟨10, _⟩ => ⟨S1024x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4096_S4096x1 : S4096.ShapeCasts S4096x1
  shapeCasts_S8_S1x8 : S8.ShapeCasts S1x8
  shapeCasts_S8x2048_S8x1x2048 : S8x2048.ShapeCasts S8x1x2048
  natLt_1_32 : 1 < 32
  inb_S1x8_S1x8_0_0 : ∀ a, (![0, 0] : Fin 2 → Nat) a + S1x8.size a ≤ S1x8.size a
  h_S1x8 : 0 < S1x8.numel
  shapeCasts_S1x8_S1x8 : S1x8.ShapeCasts S1x8
  shapeCasts_S1x8_S1x1x8 : S1x8.ShapeCasts S1x1x8
  reduces_S1x1x8_S1 : S1x1x8.Reduces [1, 2] S1
  shapeCasts_S1_S1x1x1 : S1.ShapeCasts S1x1x1
  inpos_S1x1x1_p0_0_0 : ∀ a, (![0, 0, 0] : Fin 3 → Nat) a < S1x1x1.size a
  iota_S1x8_d1_w32 : S1x8.Iotas .tc 32 [1]
  inb_S1024x2048_S1024x2048_0_0 : ∀ a, (![0, 0] : Fin 2 → Nat) a + S1024x2048.size a ≤ S1024x2048.size a
  h_S1024x2048 : 0 < S1024x2048.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  bitsLt_bf16_f32 : FTy.bits .bf16 < FTy.bits .f32
  inb_S8x2048x256_S1x2048x256_0_0_0 : ∀ a, (![0, 0, 0] : Fin 3 → Nat) a + S1x2048x256.size a ≤ S8x2048x256.size a
  h_S1x2048x256 : 0 < S1x2048x256.numel
  shapeCasts_S1x2048x256_S2048x256 : S1x2048x256.ShapeCasts S2048x256
  inb_S8x1x256_S1x1x256_0_0_0 : ∀ a, (![0, 0, 0] : Fin 3 → Nat) a + S1x1x256.size a ≤ S8x1x256.size a
  h_S1x1x256 : 0 < S1x1x256.numel
  shapeCasts_S1x1x256_S1x256 : S1x1x256.ShapeCasts S1x256
  broadcasts_S1x256_S1024x256 : S1x256.Broadcasts S1024x256
  inb_S8x2048x256_S1x2048x256_1_0_0 : ∀ a, (![1, 0, 0] : Fin 3 → Nat) a + S1x2048x256.size a ≤ S8x2048x256.size a
  inb_S8x1x256_S1x1x256_1_0_0 : ∀ a, (![1, 0, 0] : Fin 3 → Nat) a + S1x1x256.size a ≤ S8x1x256.size a
  inb_S8x2048x256_S1x2048x256_2_0_0 : ∀ a, (![2, 0, 0] : Fin 3 → Nat) a + S1x2048x256.size a ≤ S8x2048x256.size a
  inb_S8x1x256_S1x1x256_2_0_0 : ∀ a, (![2, 0, 0] : Fin 3 → Nat) a + S1x1x256.size a ≤ S8x1x256.size a
  inb_S8x2048x256_S1x2048x256_3_0_0 : ∀ a, (![3, 0, 0] : Fin 3 → Nat) a + S1x2048x256.size a ≤ S8x2048x256.size a
  inb_S8x1x256_S1x1x256_3_0_0 : ∀ a, (![3, 0, 0] : Fin 3 → Nat) a + S1x1x256.size a ≤ S8x1x256.size a
  inb_S8x2048x256_S1x2048x256_4_0_0 : ∀ a, (![4, 0, 0] : Fin 3 → Nat) a + S1x2048x256.size a ≤ S8x2048x256.size a
  inb_S8x1x256_S1x1x256_4_0_0 : ∀ a, (![4, 0, 0] : Fin 3 → Nat) a + S1x1x256.size a ≤ S8x1x256.size a
  inb_S8x2048x256_S1x2048x256_5_0_0 : ∀ a, (![5, 0, 0] : Fin 3 → Nat) a + S1x2048x256.size a ≤ S8x2048x256.size a
  inb_S8x1x256_S1x1x256_5_0_0 : ∀ a, (![5, 0, 0] : Fin 3 → Nat) a + S1x1x256.size a ≤ S8x1x256.size a
  inb_S8x2048x256_S1x2048x256_6_0_0 : ∀ a, (![6, 0, 0] : Fin 3 → Nat) a + S1x2048x256.size a ≤ S8x2048x256.size a
  inb_S8x1x256_S1x1x256_6_0_0 : ∀ a, (![6, 0, 0] : Fin 3 → Nat) a + S1x1x256.size a ≤ S8x1x256.size a
  inb_S8x2048x256_S1x2048x256_7_0_0 : ∀ a, (![7, 0, 0] : Fin 3 → Nat) a + S1x2048x256.size a ≤ S8x2048x256.size a
  inb_S8x1x256_S1x1x256_7_0_0 : ∀ a, (![7, 0, 0] : Fin 3 → Nat) a + S1x1x256.size a ≤ S8x1x256.size a
  inb_S1024x256_S1024x256_0_0 : ∀ a, (![0, 0] : Fin 2 → Nat) a + S1024x256.size a ≤ S1024x256.size a
  h_S1024x256 : 0 < S1024x256.numel
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x2048.size a
  hwx0_0 : ∀ i : grid0.Coords, EltTy.bits .f32 = 32 ∨ (Rect.block (s := S4096x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S4096x1.size a
  hwx0_1 : ∀ i : grid0.Coords, EltTy.bits .i32 = 32 ∨ (Rect.block (s := S4096x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048x256.size a ≤ S8x2048x2048.size a
  hwx0_3 : ∀ i : grid0.Coords, EltTy.bits .f32 = 32 ∨ (Rect.block (s := S8x2048x2048) S8x2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1x256.size a ≤ S8x1x2048.size a
  hwx0_4 : ∀ i : grid0.Coords, EltTy.bits .f32 = 32 ∨ (Rect.block (s := S8x1x2048) S8x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x2048.size a
  hwx0_5 : ∀ i : grid0.Coords, EltTy.bits .f32 = 32 ∨ (Rect.block (s := S4096x2048) S1024x256.size (cc0_transform_5 i) (hinb0_5 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S8x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S8 : Shape := ⟨1, ![8]⟩
abbrev S8x2048x2048 : Shape := ⟨3, ![8, 2048, 2048]⟩
abbrev S8x2048 : Shape := ⟨2, ![8, 2048]⟩
abbrev S_ : Shape := ⟨0, ![]⟩
abbrev S1 : Shape := ⟨1, ![1]⟩
abbrev S4096x1 : Shape := ⟨2, ![4096, 1]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩

abbrev nBuf : Space → Nat
  | .hbm => 152
  | .vmem => 0
  | .smem => 0
  | _ => 0

abbrev hbmTy0_0 (i : Nat) : BufTy := match i % 128 with
  | 0 => ⟨S4096x2048, .f32⟩
  | 1 => ⟨S4096, .i1⟩
  | 2 => ⟨S8, .f32⟩
  | 3 => ⟨S8x2048x2048, .f32⟩
  | 4 => ⟨S8x2048, .f32⟩
  | 5 => ⟨S_, .f32⟩
  | 6 => ⟨S_, .f32⟩
  | 7 => ⟨S_, .f32⟩
  | 8 => ⟨S_, .f32⟩
  | 9 => ⟨S1, .f32⟩
  | 10 => ⟨S8, .f32⟩
  | 11 => ⟨S8, .f32⟩
  | 12 => ⟨S8, .f32⟩
  | 13 => ⟨S_, .f32⟩
  | 14 => ⟨S_, .f32⟩
  | 15 => ⟨S1, .f32⟩
  | 16 => ⟨S8, .f32⟩
  | 17 => ⟨S8, .f32⟩
  | 18 => ⟨S4096x1, .i1⟩
  | 19 => ⟨S4096x1, .f32⟩
  | 20 => ⟨S4096x2048, .f32⟩
  | 21 => ⟨S4096x2048, .f32⟩
  | 22 => ⟨S_, .f32⟩
  | 23 => ⟨S4096x2048, .f32⟩
  | 24 => ⟨S1x2048x2048, .f32⟩
  | 25 => ⟨S2048x2048, .f32⟩
  | 26 => ⟨S4096x2048, .f32⟩
  | 27 => ⟨S1x2048, .f32⟩
  | 28 => ⟨S2048, .f32⟩
  | 29 => ⟨S1x2048, .f32⟩
  | 30 => ⟨S4096x2048, .f32⟩
  | 31 => ⟨S4096x2048, .f32⟩
  | 32 => ⟨S_, .f32⟩
  | 33 => ⟨S4096x2048, .f32⟩
  | 34 => ⟨S4096x2048, .f32⟩
  | 35 => ⟨S1, .f32⟩
  | 36 => ⟨S_, .f32⟩
  | 37 => ⟨S4096x2048, .f32⟩
  | 38 => ⟨S4096x2048, .f32⟩
  | 39 => ⟨S4096x2048, .f32⟩
  | 40 => ⟨S1x2048x2048, .f32⟩
  | 41 => ⟨S2048x2048, .f32⟩
  | 42 => ⟨S4096x2048, .f32⟩
  | 43 => ⟨S1x2048, .f32⟩
  | 44 => ⟨S2048, .f32⟩
  | 45 => ⟨S1x2048, .f32⟩
  | 46 => ⟨S4096x2048, .f32⟩
  | 47 => ⟨S4096x2048, .f32⟩
  | 48 => ⟨S_, .f32⟩
  | 49 => ⟨S4096x2048, .f32⟩
  | 50 => ⟨S4096x2048, .f32⟩
  | 51 => ⟨S1, .f32⟩
  | 52 => ⟨S_, .f32⟩
  | 53 => ⟨S4096x2048, .f32⟩
  | 54 => ⟨S4096x2048, .f32⟩
  | 55 => ⟨S4096x2048, .f32⟩
  | 56 => ⟨S1x2048x2048, .f32⟩
  | 57 => ⟨S2048x2048, .f32⟩
  | 58 => ⟨S4096x2048, .f32⟩
  | 59 => ⟨S1x2048, .f32⟩
  | 60 => ⟨S2048, .f32⟩
  | 61 => ⟨S1x2048, .f32⟩
  | 62 => ⟨S4096x2048, .f32⟩
  | 63 => ⟨S4096x2048, .f32⟩
  | 64 => ⟨S_, .f32⟩
  | 65 => ⟨S4096x2048, .f32⟩
  | 66 => ⟨S4096x2048, .f32⟩
  | 67 => ⟨S1, .f32⟩
  | 68 => ⟨S_, .f32⟩
  | 69 => ⟨S4096x2048, .f32⟩
  | 70 => ⟨S4096x2048, .f32⟩
  | 71 => ⟨S4096x2048, .f32⟩
  | 72 => ⟨S1x2048x2048, .f32⟩
  | 73 => ⟨S2048x2048, .f32⟩
  | 74 => ⟨S4096x2048, .f32⟩
  | 75 => ⟨S1x2048, .f32⟩
  | 76 => ⟨S2048, .f32⟩
  | 77 => ⟨S1x2048, .f32⟩
  | 78 => ⟨S4096x2048, .f32⟩
  | 79 => ⟨S4096x2048, .f32⟩
  | 80 => ⟨S_, .f32⟩
  | 81 => ⟨S4096x2048, .f32⟩
  | 82 => ⟨S4096x2048, .f32⟩
  | 83 => ⟨S1, .f32⟩
  | 84 => ⟨S_, .f32⟩
  | 85 => ⟨S4096x2048, .f32⟩
  | 86 => ⟨S4096x2048, .f32⟩
  | 87 => ⟨S4096x2048, .f32⟩
  | 88 => ⟨S1x2048x2048, .f32⟩
  | 89 => ⟨S2048x2048, .f32⟩
  | 90 => ⟨S4096x2048, .f32⟩
  | 91 => ⟨S1x2048, .f32⟩
  | 92 => ⟨S2048, .f32⟩
  | 93 => ⟨S1x2048, .f32⟩
  | 94 => ⟨S4096x2048, .f32⟩
  | 95 => ⟨S4096x2048, .f32⟩
  | 96 => ⟨S_, .f32⟩
  | 97 => ⟨S4096x2048, .f32⟩
  | 98 => ⟨S4096x2048, .f32⟩
  | 99 => ⟨S1, .f32⟩
  | 100 => ⟨S_, .f32⟩
  | 101 => ⟨S4096x2048, .f32⟩
  | 102 => ⟨S4096x2048, .f32⟩
  | 103 => ⟨S4096x2048, .f32⟩
  | 104 => ⟨S1x2048x2048, .f32⟩
  | 105 => ⟨S2048x2048, .f32⟩
  | 106 => ⟨S4096x2048, .f32⟩
  | 107 => ⟨S1x2048, .f32⟩
  | 108 => ⟨S2048, .f32⟩
  | 109 => ⟨S1x2048, .f32⟩
  | 110 => ⟨S4096x2048, .f32⟩
  | 111 => ⟨S4096x2048, .f32⟩
  | 112 => ⟨S_, .f32⟩
  | 113 => ⟨S4096x2048, .f32⟩
  | 114 => ⟨S4096x2048, .f32⟩
  | 115 => ⟨S1, .f32⟩
  | 116 => ⟨S_, .f32⟩
  | 117 => ⟨S4096x2048, .f32⟩
  | 118 => ⟨S4096x2048, .f32⟩
  | 119 => ⟨S4096x2048, .f32⟩
  | 120 => ⟨S1x2048x2048, .f32⟩
  | 121 => ⟨S2048x2048, .f32⟩
  | 122 => ⟨S4096x2048, .f32⟩
  | 123 => ⟨S1x2048, .f32⟩
  | 124 => ⟨S2048, .f32⟩
  | 125 => ⟨S1x2048, .f32⟩
  | 126 => ⟨S4096x2048, .f32⟩
  | 127 => ⟨S4096x2048, .f32⟩
  | _ => ⟨S4096x2048, .f32⟩

abbrev hbmTy0_1 (i : Nat) : BufTy := match i % 128 with
  | 0 => ⟨S_, .f32⟩
  | 1 => ⟨S4096x2048, .f32⟩
  | 2 => ⟨S4096x2048, .f32⟩
  | 3 => ⟨S1, .f32⟩
  | 4 => ⟨S_, .f32⟩
  | 5 => ⟨S4096x2048, .f32⟩
  | 6 => ⟨S4096x2048, .f32⟩
  | 7 => ⟨S4096x2048, .f32⟩
  | 8 => ⟨S1x2048x2048, .f32⟩
  | 9 => ⟨S2048x2048, .f32⟩
  | 10 => ⟨S4096x2048, .f32⟩
  | 11 => ⟨S1x2048, .f32⟩
  | 12 => ⟨S2048, .f32⟩
  | 13 => ⟨S1x2048, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S1, .f32⟩
  | 20 => ⟨S_, .f32⟩
  | 21 => ⟨S4096x2048, .f32⟩
  | 22 => ⟨S4096x2048, .f32⟩
  | 23 => ⟨S4096x2048, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call0_cst : Ref sig .tc := ⟨.hbm, 32, rfl⟩
abbrev main_call0_v0 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call1_cst : Ref sig .tc := ⟨.hbm, 48, rfl⟩
abbrev main_call1_v0 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_call2_cst : Ref sig .tc := ⟨.hbm, 64, rfl⟩
abbrev main_call2_v0 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_call3_cst : Ref sig .tc := ⟨.hbm, 80, rfl⟩
abbrev main_call3_v0 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_call4_cst : Ref sig .tc := ⟨.hbm, 96, rfl⟩
abbrev main_call4_v0 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_call5_cst : Ref sig .tc := ⟨.hbm, 112, rfl⟩
abbrev main_call5_v0 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_call6_cst : Ref sig .tc := ⟨.hbm, 128, rfl⟩
abbrev main_call6_v0 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_call7_cst : Ref sig .tc := ⟨.hbm, 144, rfl⟩
abbrev main_call7_v0 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩

abbrev nD : Nat := 1
abbrev τ : Topo := Topo.v7x

variable {F : FTy → Type} [FloatOps F]

class Facts₀ : Prop where
  reducesTo_S8_S_d0 : S8.ReducesTo [0] S_
  h_S_ : 0 < S_.numel
  bcast_S_S1 : S_.BroadcastsInDim S1 (![] : Fin 0 → Fin S1.rank)
  bcast_S1_S8_0 : S1.BroadcastsInDim S8 (![0] : Fin 1 → Fin S8.rank)
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  bcast_S_S4096x2048 : S_.BroadcastsInDim S4096x2048 (![] : Fin 0 → Fin S4096x2048.rank)
  slices_S8x2048x2048_S1x2048x2048_0_0_0 : S8x2048x2048.Slices ![0, 0, 0] S1x2048x2048
  shapeCasts_S1x2048x2048_S2048x2048 : S1x2048x2048.ShapeCasts S2048x2048
  slices_S8x2048_S1x2048_0_0 : S8x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  slices_S8_S1_0 : S8.Slices ![0] S1
  shapeCasts_S1_S_ : S1.ShapeCasts S_
  slices_S8x2048x2048_S1x2048x2048_1_0_0 : S8x2048x2048.Slices ![1, 0, 0] S1x2048x2048
  slices_S8x2048_S1x2048_1_0 : S8x2048.Slices ![1, 0] S1x2048
  slices_S8_S1_1 : S8.Slices ![1] S1
  slices_S8x2048x2048_S1x2048x2048_2_0_0 : S8x2048x2048.Slices ![2, 0, 0] S1x2048x2048
  slices_S8x2048_S1x2048_2_0 : S8x2048.Slices ![2, 0] S1x2048
  slices_S8_S1_2 : S8.Slices ![2] S1
  slices_S8x2048x2048_S1x2048x2048_3_0_0 : S8x2048x2048.Slices ![3, 0, 0] S1x2048x2048
  slices_S8x2048_S1x2048_3_0 : S8x2048.Slices ![3, 0] S1x2048
  slices_S8_S1_3 : S8.Slices ![3] S1
  slices_S8x2048x2048_S1x2048x2048_4_0_0 : S8x2048x2048.Slices ![4, 0, 0] S1x2048x2048
  slices_S8x2048_S1x2048_4_0 : S8x2048.Slices ![4, 0] S1x2048
  slices_S8_S1_4 : S8.Slices ![4] S1
  slices_S8x2048x2048_S1x2048x2048_5_0_0 : S8x2048x2048.Slices ![5, 0, 0] S1x2048x2048
  slices_S8x2048_S1x2048_5_0 : S8x2048.Slices ![5, 0] S1x2048
  slices_S8_S1_5 : S8.Slices ![5] S1
  slices_S8x2048x2048_S1x2048x2048_6_0_0 : S8x2048x2048.Slices ![6, 0, 0] S1x2048x2048
  slices_S8x2048_S1x2048_6_0 : S8x2048.Slices ![6, 0] S1x2048
  slices_S8_S1_6 : S8.Slices ![6] S1
  slices_S8x2048x2048_S1x2048x2048_7_0_0 : S8x2048x2048.Slices ![7, 0, 0] S1x2048x2048
  slices_S8x2048_S1x2048_7_0 : S8x2048.Slices ![7, 0] S1x2048
  slices_S8_S1_7 : S8.Slices ![7] S1
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Spec.lean ====
/-
  The mathematics of the mixture, with no program in sight.

  Eight logits a give weights  w_k = exp (a_k - top a) / Σ_l exp (a_l - top a),  top a the largest logit.  A row r of
  the input is kept or zeroed by a one-bit gate, the gated row is sent through eight affine maps
  z_k = (gated row) · W_k + b_k, each rectified, and the result is the weighted sum  Σ_k w_k · max (z_k) 0.

  Over the extended reals two facts are needed to move a weight inside the rectifier: a weight is a nonnegative
  REAL number as soon as the logits are real (so it distributes over a sum, whatever the summands), and
  multiplication by a nonnegative number is monotone (so it commutes with max).
-/
import Idealize.ShloMosaic.Lib.ValueIdx
import Idealize.ShloMosaic.PureOps.Ideal.Laws

noncomputable section

namespace Cert.Mixture

open Idealize.ShloMosaic Idealize.ShloMosaic.ValueIdx

/-! ## Sums and folds through a reshape -/

section Reindex
variable {α : Type}

/-- A reshape permutes the entries, so a sum over all of them is unchanged. -/
theorem sum_shapeCast {M : Type} [AddCommMonoid M] {s t : Shape} (h : s.ShapeCasts t) (x : s.Idx → M) :
    ∑ j : t.Idx, shapeCast t x h j = ∑ i : s.Idx, x i :=
  Equiv.sum_comp (Shape.reshapeEquiv h) x

/-- A reshape permutes the entries, so a commutative fold over all of them is unchanged. -/
theorem fold_shapeCast {s t : Shape} (h : s.ShapeCasts t) (f : α → α → α) [Std.Commutative f] [Std.Associative f]
    (b : α) (x : s.Idx → α) :
    (Finset.univ : Finset t.Idx).fold f b (shapeCast t x h) = (Finset.univ : Finset s.Idx).fold f b x := by
  have e : shapeCast t x h = x ∘ (Shape.reshapeEquiv h).toEmbedding := rfl
  rw [e, ← Finset.fold_map, Finset.map_univ_equiv]

/-- The real numbers sit additively inside the extended reals, finite sums included. -/
theorem coe_sum {ι : Type} (s : Finset ι) (f : ι → ℝ) : ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

end Reindex

/-! ## The weights -/

abbrev L8 : Shape := ⟨1, ![8]⟩

/-- The largest of the eight logits. -/
def top (a : L8.Idx → EReal) : EReal := (Finset.univ : Finset L8.Idx).fold max ⊥ a

/-- A logit's exponential, relative to the largest. -/
def expw (a : L8.Idx → EReal) (i : L8.Idx) : EReal := Ideal.exp (a i - top a)

/-- The weight of a logit: its share of the exponentials' sum. -/
def weight (a : L8.Idx → EReal) (i : L8.Idx) : EReal := Ideal.div (expw a i) (∑ i', expw a i')

/-- Real logits have a real largest one. -/
theorem top_real (a : L8.Idx → EReal) (h : ∀ i, ∃ r : ℝ, a i = r) : ∃ M : ℝ, top a = M := by
  have h1 : top a < ⊤ := by
    unfold top
    rw [Finset.fold_max_lt]
    refine ⟨bot_lt_top, fun i _ => ?_⟩
    obtain ⟨r, hr⟩ := h i
    rw [hr]; exact EReal.coe_lt_top r
  have h2 : ⊥ < top a := by
    unfold top
    rw [Finset.lt_fold_max]
    refine Or.inr ⟨ix1 0, Finset.mem_univ _, ?_⟩
    obtain ⟨r, hr⟩ := h (ix1 0)
    rw [hr]; exact EReal.bot_lt_coe r
  exact ⟨(top a).toReal, (EReal.coe_toReal h1.ne h2.ne').symm⟩

/-- WITH REAL LOGITS EVERY WEIGHT IS A NONNEGATIVE REAL NUMBER: each exponential is a positive real, so is their sum,
    and the quotient of a positive real by a positive real is one. -/
theorem weight_real (a : L8.Idx → EReal) (h : ∀ i, ∃ r : ℝ, a i = r) (i : L8.Idx) :
    ∃ w : ℝ, 0 ≤ w ∧ weight a i = w := by
  obtain ⟨M, hM⟩ := top_real a h
  choose ra hra using h
  have hexp : ∀ i, expw a i = ((Real.exp (ra i - M) : ℝ) : EReal) := fun i => by
    unfold expw
    rw [hM, hra i, ← EReal.coe_sub]
    rfl
  have hsum : ∑ i', expw a i' = ((∑ i', Real.exp (ra i' - M) : ℝ) : EReal) := by
    rw [coe_sum]
    exact Finset.sum_congr rfl fun i' _ => hexp i'
  have hpos : 0 < ∑ i' : L8.Idx, Real.exp (ra i' - M) :=
    Finset.sum_pos (fun i' _ => Real.exp_pos _) ⟨ix1 0, Finset.mem_univ _⟩
  refine ⟨Real.exp (ra i - M) * (1 / ∑ i', Real.exp (ra i' - M)), ?_, ?_⟩
  · exact mul_nonneg (Real.exp_pos _).le (by positivity)
  · unfold weight
    rw [hsum, hexp i, Ideal.div_coe hpos.ne', ← EReal.coe_mul]

/-! ## A weight moves inside the rectifier -/

/-- For a nonnegative real w and ANY extended reals z and b:  max (z·w + w·b) 0 = w · max (z + b) 0.  The weight
    distributes over the sum because it is nonnegative and not +∞, and commutes with max because multiplication by a
    nonnegative number is monotone. -/
theorem scale_relu (w : ℝ) (hw : 0 ≤ w) (z b : EReal) :
    max (z * (w : EReal) + (w : EReal) * b) 0 = (w : EReal) * max (z + b) 0 := by
  have hw' : (0 : EReal) ≤ (w : EReal) := EReal.coe_nonneg.2 hw
  rw [mul_comm z, ← EReal.left_distrib_of_nonneg_of_ne_top hw' (EReal.coe_ne_top w)]
  have hmono : Monotone (fun y : EReal => (w : EReal) * y) := fun _ _ hxy => mul_le_mul_of_nonneg_left hxy hw'
  have := hmono.map_max (a := z + b) (b := 0)
  simp only [mul_zero] at this
  exact this.symm

/-! ## The gate -/

/-- A row's gate: the bit read as the number 0 or 1. -/
def gate (b : BitVec 1) : EReal := ((b.toNat : ℝ) : EReal)

/-- The bit widened to a word, tested against zero, widened again and read as a signed integer is the bit's number. -/
theorem gate_word (b : BitVec 1) :
    FloatOps.sitofp (F := Ideal) .f32 ((IntOp.cmpi .ne (b.setWidth 32) 0#32).setWidth 32) = gate b := by
  have hb : ∀ b : BitVec 1, ((IntOp.cmpi .ne (b.setWidth 32) 0#32).setWidth 32).toInt = (b.toNat : ℤ) := by decide
  show (((((IntOp.cmpi .ne (b.setWidth 32) 0#32).setWidth 32).toInt : ℤ) : ℝ) : EReal) = ((b.toNat : ℝ) : EReal)
  rw [hb b]
  simp

/-- The bit converted to a float directly is the bit's number. -/
theorem gate_bit (b : BitVec 1) : FloatOps.uitofp (F := Ideal) .f32 b = gate b := rfl

/-! ## The result, as one function of the five arrays -/

/-- Entry (r, c) of the result: the weighted sum over the eight maps of the rectified affine image of the gated row r. -/
def mix (x : (⟨2, ![4096, 2048]⟩ : Shape).Idx → EReal) (mk : (⟨1, ![4096]⟩ : Shape).Idx → BitVec 1)
    (a : L8.Idx → EReal) (W : (⟨3, ![8, 2048, 2048]⟩ : Shape).Idx → EReal) (b : (⟨2, ![8, 2048]⟩ : Shape).Idx → EReal) :
    (⟨2, ![4096, 2048]⟩ : Shape).Idx → EReal :=
  fun i => ∑ k : Fin 8, weight a (ix1 k) *
    max ((∑ j : Fin 2048, (x (ix2 (i 0) j) * gate (mk (ix1 (i 0)))) * W (ix3 k j (i 1))) + b (ix2 k (i 1))) 0

end Cert.Mixture

end
-- ==== Proof.LibLoads.lean ====
/-
  General lemmas about loads through unit-stride rectangles.

  A staging buffer that a body fills store by store is read back as the list of its stores; a load through the
  rectangle of offsets off and sizes size reads, at position j, what the stores left at index off + j. A load of the
  whole of an untouched staged buffer reads its contents. The all-zero offset vectors of ranks one to four are the
  constant zero function.
-/
import Idealize.ShloMosaic.Lib.Pipeline.Value
import Idealize.ShloMosaic.Lib.Pipeline.Frame
import Idealize.ShloMosaic.Lib.WritesUnit

noncomputable section

namespace Cert.LibLoads

open Idealize.ShloMosaic

/-- The rank-one zero offsets. -/
theorem zeros1 : (![0] : Fin 1 → ℕ) = fun _ => 0 := funext fun a => by
  match a with
  | ⟨0, _⟩ => rfl

/-- The rank-two zero offsets. -/
theorem zeros2 : (![0, 0] : Fin 2 → ℕ) = fun _ => 0 := funext fun a => by
  match a with
  | ⟨0, _⟩ => rfl
  | ⟨1, _⟩ => rfl

/-- The rank-three zero offsets. -/
theorem zeros3 : (![0, 0, 0] : Fin 3 → ℕ) = fun _ => 0 := funext fun a => by
  match a with
  | ⟨0, _⟩ => rfl
  | ⟨1, _⟩ => rfl
  | ⟨2, _⟩ => rfl

/-- The rank-four zero offsets. -/
theorem zeros4 : (![0, 0, 0, 0] : Fin 4 → ℕ) = fun _ => 0 := funext fun a => by
  match a with
  | ⟨0, _⟩ => rfl
  | ⟨1, _⟩ => rfl
  | ⟨2, _⟩ => rfl
  | ⟨3, _⟩ => rfl

variable {Val : EltTy → Type} {sig : RefSig} {κ : Kind} {sp : Space} {s : Shape} {e : EltTy}

/-- A load through a unit-stride rectangle of what a list of stores left, at position j: the contents the stores left
    at the index y whose coordinates are the rectangle's offsets plus j's. -/
theorem readCov_unit_apply [∀ e, Nonempty (Val e)] (v : View sig κ sp s e) (L : List (View.Piece Val s e))
    (off size : Fin s.rank → ℕ) (inb : ∀ a, off a + size a ≤ s.size a)
    (j : (Rect.unit off size inb).shape.Idx) (y : s.Idx) (hy : ∀ a, (y a).val = off a + (j a).val) :
    v.readCov L (Rect.unit off size inb).toLoadRect j = v.read Val (v.writes Val v.junk L) y := by
  have h : (Rect.unit off size inb).emb j = y := funext fun a => Fin.ext (by
    show off a + 1 * (j a).val = (y a).val
    rw [hy a, Nat.one_mul])
  rw [← h]
  rfl

/-- A load of the whole of a staged buffer that holds x reads x. -/
theorem readAt_whole (mr : Memref sig κ sp s e) (hm : mr.IsWhole) (off : Fin s.rank → ℕ) (hz : off = fun _ => 0)
    (inb : ∀ a, off a + s.size a ≤ s.size a) (x : s.Idx → Val e) :
    View.readAt Val mr.view (Rect.unit off s.size inb).toLoadRect (hm.unread x) = x := by
  rw [View.readAt_eq_ld, hm.read_unread]
  exact View.ld_unit_zero hz inb x

end Cert.LibLoads

end
-- ==== Proof.KernelOp.lean ====
/-
  One grid point's block of the result, as the body computes it.

  The body forms the weight row once, picks weight k out of it by summing the row with every other lane zeroed, and adds
  up eight terms  max (A·B_k · w_k + w_k · b_k) 0,  A the gated 1024 × 2048 block of rows, B_k the k-th 2048 × 256 block
  of columns, b_k the matching 256 biases.  Here that reading is made index by index over the extended reals.
-/
import proofs.«139095_g51634096833270_cont_9to1_m_282_47_alg».proof.Proof.Gen.KernelIdeal.Frame
import proofs.«139095_g51634096833270_cont_9to1_m_282_47_alg».proof.Proof.Spec
import proofs.«139095_g51634096833270_cont_9to1_m_282_47_alg».proof.Proof.LibLoads
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx

/-! ## The body's terms, for any float instance -/

section Terms
variable {F : FTy → Type} [FloatOps F]

/-- A row of eight summed to a scalar, as the body does it. -/
def rowSum (u : FVec F S1x8 .f32) : F .f32 :=
  extractAt ![0, 0, 0]
    (shapeCast S1x1x1
      (multiReduction .add [1, 2] S1 (shapeCast S1x1x8 u shapeCasts_S1x8_S1x1x8) 0x00000000#32 reduces_S1x1x8_S1 (.inl rfl) rfl)
      shapeCasts_S1_S1x1x1)
    inpos_S1x1x1_p0_0_0

/-- A row of eight reduced to its maximum, as the body does it. -/
def rowMax (u : FVec F S1x8 .f32) : F .f32 :=
  extractAt ![0, 0, 0]
    (shapeCast S1x1x1
      (multiReduction .maximumf [1, 2] S1 (shapeCast S1x1x8 u shapeCasts_S1x8_S1x1x8) 0xFF800000#32 reduces_S1x1x8_S1 (.inl rfl) rfl)
      shapeCasts_S1_S1x1x1)
    inpos_S1x1x1_p0_0_0

/-- The weight row of a row v of eight numbers: exp (v - max v), divided by its own sum. -/
def softRow (v : FVec F S1x8 .f32) : FVec F S1x8 .f32 :=
  divf (exp (subf v (broadcast S1x8 (rowMax v))))
    (broadcast S1x8 (rowSum (exp (subf v (broadcast S1x8 (rowMax v))))))

/-- The body's weight row is that, of the row it loads. -/
theorem pay2_eq (v0 : Vec F S1x8 .f32) : k0_pay2 v0 = softRow (shapeCast S1x8 v0 shapeCasts_S1x8_S1x8) := rfl

/-- Weight number k of the weight row: the sum of the row with every lane but lane k zeroed. -/
def pick (p : FVec F S1x8 .f32) (k : BitVec 32) : F .f32 :=
  rowSum (select (cmpi .eq (iota .tc S1x8 32 [1] iota_S1x8_d1_w32) (broadcast S1x8 k)) p
    (broadcast S1x8 (Scalar.ofBits .f32 0x00000000#32)))

/-- One term: the gated rows times one block of columns, scaled by the weight, plus the scaled biases, rectified. -/
def opTerm (p : F .f32) (xm : FVec F S1024x2048 .bf16) (w : Vec F S1x2048x256 .f32) (bb : Vec F S1x1x256 .f32) :
    FVec F S1024x256 .f32 :=
  maximumf
    (addf
      (mulf
        (matmul dot_S1024x2048_S2048x256_S1024x256_1_0_0_1_n_n none xm
          (truncf .bf16 (shapeCast S2048x256 w shapeCasts_S1x2048x256_S2048x256) bitsLt_bf16_f32)
          (constant S1024x256 .f32 0x00000000#32))
        (broadcast S1024x256 p))
      (broadcastTo S1024x256 (mulf (broadcast S1x256 p) (shapeCast S1x256 bb shapeCasts_S1x1x256_S1x256))
        broadcasts_S1x256_S1024x256))
    (broadcast S1024x256 (Scalar.ofBits .f32 0x00000000#32))

/-- THE BLOCK A POINT WRITES is the eight terms added up in order: the weight row and the gated rows are formed once, term k
    uses weight k, column block k and bias row k. -/
theorem out_eq_terms (x0 : Vec F S1024x2048 .f32) (x1 : Vec F S1024x1 .i32) (x2 : Vec F S1x8 .f32)
    (x3 : Vec F S8x2048x256 .f32) (x4 : Vec F S8x1x256 .f32) :
    out0_5 x0 x1 x2 x3 x4 =
      addf (addf (addf (addf (addf (addf (addf
        (opTerm (pick (k0_pay2 (View.ld x2 r0_0)) 0#32) (k0_pay3 (View.ld x0 r0_1) (View.ld x1 r0_2)) (View.ld x3 r0_3) (View.ld x4 r0_4))
        (opTerm (pick (k0_pay2 (View.ld x2 r0_0)) 1#32) (k0_pay3 (View.ld x0 r0_1) (View.ld x1 r0_2)) (View.ld x3 r0_5) (View.ld x4 r0_6)))
        (opTerm (pick (k0_pay2 (View.ld x2 r0_0)) 2#32) (k0_pay3 (View.ld x0 r0_1) (View.ld x1 r0_2)) (View.ld x3 r0_7) (View.ld x4 r0_8)))
        (opTerm (pick (k0_pay2 (View.ld x2 r0_0)) 3#32) (k0_pay3 (View.ld x0 r0_1) (View.ld x1 r0_2)) (View.ld x3 r0_9) (View.ld x4 r0_10)))
        (opTerm (pick (k0_pay2 (View.ld x2 r0_0)) 4#32) (k0_pay3 (View.ld x0 r0_1) (View.ld x1 r0_2)) (View.ld x3 r0_11) (View.ld x4 r0_12)))
        (opTerm (pick (k0_pay2 (View.ld x2 r0_0)) 5#32) (k0_pay3 (View.ld x0 r0_1) (View.ld x1 r0_2)) (View.ld x3 r0_13) (View.ld x4 r0_14)))
        (opTerm (pick (k0_pay2 (View.ld x2 r0_0)) 6#32) (k0_pay3 (View.ld x0 r0_1) (View.ld x1 r0_2)) (View.ld x3 r0_15) (View.ld x4 r0_16)))
        (opTerm (pick (k0_pay2 (View.ld x2 r0_0)) 7#32) (k0_pay3 (View.ld x0 r0_1) (View.ld x1 r0_2)) (View.ld x3 r0_17) (View.ld x4 r0_18)) := by
  unfold out0_5
  rw [View.canon_unit_zero Cert.LibLoads.zeros2]
  rfl

end Terms

/-! ## Read at an entry, over the extended reals -/

section AtIdeal

/-- The product's left factor at output entry i and contracted position q lies in row i. -/
theorem lhs_row (i : S1024x256.Idx) (q : dot_S1024x2048_S2048x256_S1024x256_1_0_0_1_n_n.contr.Idx) : (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

/-- … at column q. -/
theorem lhs_col (i : S1024x256.Idx) (q : dot_S1024x2048_S2048x256_S1024x256_1_0_0_1_n_n.contr.Idx) : (dot_S1024x2048_S2048x256_S1024x256_1_0_0_1_n_n.lhsIdx i q 1).val = (q ⟨0, by decide⟩).val :=
  dot_S1024x2048_S2048x256_S1024x256_1_0_0_1_n_n.lhsIdx_val_of_single rfl i q

/-- The right factor lies in row q … -/
theorem rhs_row (i : S1024x256.Idx) (q : dot_S1024x2048_S2048x256_S1024x256_1_0_0_1_n_n.contr.Idx) : (dot_S1024x2048_S2048x256_S1024x256_1_0_0_1_n_n.rhsIdx i q 0).val = (q ⟨0, by decide⟩).val :=
  dot_S1024x2048_S2048x256_S1024x256_1_0_0_1_n_n.rhsIdx_val_of_single rfl i q

/-- … and column i. -/
theorem rhs_col (i : S1024x256.Idx) (q : dot_S1024x2048_S2048x256_S1024x256_1_0_0_1_n_n.contr.Idx) : (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- THE BLOCK PRODUCT AT AN ENTRY: into a zero accumulator it is the plain sum, over the 2048 contracted positions, of row
    r of the left block times column c of the right one. -/
theorem matmul_entry (A : FVec Ideal S1024x2048 .bf16) (B : FVec Ideal S2048x256 .bf16) (r : Fin 1024) (c : Fin 256) :
    matmul dot_S1024x2048_S2048x256_S1024x256_1_0_0_1_n_n none A B (constant S1024x256 .f32 0x00000000#32) (ix2 r c)
      = ∑ j : Fin 2048, A (ix2 r j) * B (ix2 j c) := by
  simp only [matmul]
  rw [Ideal.matmul_constant_zero_apply, ← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 r c) ((ValueIdx.contrEquiv1 dot_S1024x2048_S2048x256_S1024x256_1_0_0_1_n_n 2048 rfl rfl).symm k) = ix2 r k :=
    funext fun a => Fin.ext (by
      match a with
      | ⟨0, _⟩ => exact lhs_row _ _
      | ⟨1, _⟩ => exact (lhs_col _ _).trans hk)
  have er : dot_S1024x2048_S2048x256_S1024x256_1_0_0_1_n_n.rhsIdx (ix2 r c) ((ValueIdx.contrEquiv1 dot_S1024x2048_S2048x256_S1024x256_1_0_0_1_n_n 2048 rfl rfl).symm k) = ix2 k c :=
    funext fun a => Fin.ext (by
      match a with
      | ⟨0, _⟩ => exact (rhs_row _ _).trans hk
      | ⟨1, _⟩ => exact rhs_col _ _)
  rw [el, er]

/-- The float zero the body splats is the number zero. -/
theorem zero_splat : Scalar.ofBits (F := Ideal) .f32 0x00000000#32 = (0 : EReal) := Ideal.ofBits_zero_f32

/-- ONE TERM AT AN ENTRY (r, c): the sum over j of (gated row r)_j · (column block)_{j c}, times the weight, plus the weight
    times the bias of column c, rectified. -/
theorem opTerm_apply (p : Ideal .f32) (xm : FVec Ideal S1024x2048 .bf16) (w : Vec Ideal S1x2048x256 .f32)
    (bb : Vec Ideal S1x1x256 .f32) (r : Fin 1024) (c : Fin 256) :
    opTerm p xm w bb (ix2 r c)
      = max ((∑ j : Fin 2048, xm (ix2 r j) * w (ix3 0 j c)) * p + p * bb (ix3 0 0 c)) 0 := by
  unfold opTerm
  rw [maximumf_apply, addf_apply, mulf_apply, broadcast_apply, broadcast_apply, matmul_entry,
    broadcastTo_1b_ab_apply, mulf_apply, broadcast_apply, shapeCast_1ab_ab_apply, zero_splat]
  simp only [truncf_apply, shapeCast_1ab_ab_apply]

end AtIdeal

/-! ## The weight row and the picks -/

section Weights

theorem cmpi_eq_self (x : BitVec 32) : IntOp.cmpi .eq x x = 1#1 := by simp [IntOp.cmpi]

theorem cmpi_eq_ne {x y : BitVec 32} (h : x ≠ y) : IntOp.cmpi .eq x y = 0#1 := by
  rw [show IntOp.cmpi .eq x y = BitVec.ofBool (x == y) from rfl, beq_eq_false_iff_ne.2 h]
  rfl

theorem ofNat_inj8 {a b : ℕ} (ha : a < 8) (hb : b < 8) (h : BitVec.ofNat 32 a = BitVec.ofNat 32 b) : a = b := by
  have := congrArg BitVec.toNat h
  simp only [BitVec.toNat_ofNat] at this
  omega

/-- The reduced shape has one entry. -/
theorem S1_size (b : Fin S1.rank) : S1.size b = 1 := by
  match b with
  | ⟨0, _⟩ => rfl

/-- The scalar the body extracts from a one-entry vector is that vector's entry. -/
theorem extract_scalar {α : Type} (u : S1.Idx → α) :
    extractAt ![0, 0, 0] (shapeCast S1x1x1 u shapeCasts_S1_S1x1x1) inpos_S1x1x1_p0_0_0
      = u (Shape.reshapeEquiv shapeCasts_S1_S1x1x1 (fun a => ⟨(![0, 0, 0] : Fin 3 → ℕ) a, inpos_S1x1x1_p0_0_0 a⟩)) := rfl

/-- The sum over both trailing axes of a 1 × 1 × 8 vector is the sum of all its entries. -/
theorem sum_lanes (v : FVec Ideal S1x1x8 .f32) (j : S1.Idx) :
    multiReduction .add [1, 2] S1 v 0x00000000#32 reduces_S1x1x8_S1 (.inl rfl) rfl j = ∑ i, v i :=
  Ideal.multiReduction_add_total v _ reduces_S1x1x8_S1 S1_size _ _ j

/-- Its maximum over both trailing axes, from -∞, is the fold of max over all its entries. -/
theorem max_lanes (v : FVec Ideal S1x1x8 .f32) (j : S1.Idx) :
    multiReduction .maximumf [1, 2] S1 v 0xFF800000#32 reduces_S1x1x8_S1 (.inl rfl) rfl j
      = (Finset.univ : Finset S1x1x8.Idx).fold max ⊥ v := by
  refine (multiReduction_maximumf_eq_fold v 0xFF800000#32 reduces_S1x1x8_S1 (.inl rfl) rfl j).trans ?_
  rw [Finset.filter_true_of_mem fun i _ => funext fun b => Fin.ext (by
    have := (reduces_S1x1x8_S1.drop i b).isLt; have := (j b).isLt; have := S1_size b; omega)]
  have hb : FloatOps.ofBits (F := Ideal) .f32 0xFF800000#32 = (⊥ : EReal) := by simp [Ideal.ofBits, Ideal.ieee]
  rw [hb]
  rfl

/-- The scalar the body makes of a row of eight by summing it: the sum of the row's entries. -/
theorem extract_sum (u : FVec Ideal S1x8 .f32) : rowSum u = ∑ i, u i :=
  (extract_scalar _).trans ((sum_lanes _ _).trans (Mixture.sum_shapeCast _ _))

/-- The scalar the body makes of a row of eight by taking its maximum: the fold of max over the row's entries. -/
theorem extract_max (u : FVec Ideal S1x8 .f32) : rowMax u = (Finset.univ : Finset S1x8.Idx).fold max ⊥ u :=
  (extract_scalar _).trans ((max_lanes _ _).trans (Mixture.fold_shapeCast _ _ _ _))

/-- A PICK IS AN ENTRY OF THE ROW: summing the row with every lane but lane k zeroed leaves entry k. -/
theorem pick_eq (p : FVec Ideal S1x8 .f32) (k : ℕ) (hk : k < 8) :
    pick p (BitVec.ofNat 32 k) = p (ix2 0 ⟨k, hk⟩) := by
  unfold pick
  rw [extract_sum]
  rw [Finset.sum_eq_single (ix2 (0 : Fin 1) (⟨k, hk⟩ : Fin 8))]
  · rw [select_apply, show cmpi .eq (iota .tc S1x8 32 [1] iota_S1x8_d1_w32) (broadcast S1x8 (BitVec.ofNat 32 k)) (ix2 0 ⟨k, hk⟩)
        = IntOp.cmpi .eq (iota .tc S1x8 32 [1] iota_S1x8_d1_w32 (ix2 0 ⟨k, hk⟩)) (BitVec.ofNat 32 k) from rfl,
      iota_single_apply]
    show Scalar.select (IntOp.cmpi .eq (BitVec.ofNat 32 k) (BitVec.ofNat 32 k)) _ _ = _
    rw [cmpi_eq_self, select_one]
  · intro i _ hi
    obtain ⟨u, v, rfl⟩ : ∃ (u : Fin 1) (v : Fin 8), i = ix2 u v := ⟨i 0, i 1, eq_ix2 i⟩
    obtain rfl : u = 0 := Subsingleton.elim _ _
    have hne : v.val ≠ k := fun h => hi (by rw [show v = ⟨k, hk⟩ from Fin.ext h])
    rw [select_apply, show cmpi .eq (iota .tc S1x8 32 [1] iota_S1x8_d1_w32) (broadcast S1x8 (BitVec.ofNat 32 k)) (ix2 0 v)
        = IntOp.cmpi .eq (iota .tc S1x8 32 [1] iota_S1x8_d1_w32 (ix2 0 v)) (BitVec.ofNat 32 k) from rfl,
      iota_single_apply, cmpi_eq_ne (fun h => hne (ofNat_inj8 v.isLt hk h)), select_zero, broadcast_apply]
    exact zero_splat
  · intro h; exact absurd (Finset.mem_univ _) h

/-- The weight row formed from ANY row v of eight numbers: entry i is exp (v_i - max v) over the sum of those exponentials. -/
theorem pay2_apply (v0 : FVec Ideal S1x8 .f32) (i : S1x8.Idx) :
    k0_pay2 (F := Ideal) v0 i
      = Ideal.div (Ideal.exp (v0 i - (Finset.univ : Finset S1x8.Idx).fold max ⊥ v0))
          (∑ i', Ideal.exp (v0 i' - (Finset.univ : Finset S1x8.Idx).fold max ⊥ v0)) := by
  rw [pay2_eq, shapeCast_self]
  unfold softRow
  rw [extract_max, extract_sum]
  rfl

/-- THE WEIGHT ROW IS THE SOFTMAX OF THE LOGITS: formed from the logits laid out as one row of eight, its entry l is logit
    l's share of the exponentials (relative to the largest logit) — the reductions run over the same eight numbers
    however they are laid out. -/
theorem weights_row (a : S8.Idx → EReal) (l : Fin 8) :
    k0_pay2 (F := Ideal) (shapeCast S1x8 a shapeCasts_S8_S1x8) (ix2 0 l) = Mixture.weight a (ix1 l) := by
  rw [pay2_apply, Mixture.fold_shapeCast, shapeCast_a_1a_apply]
  unfold Mixture.weight Mixture.expw Mixture.top
  exact congrArg (Ideal.div _) (Mixture.sum_shapeCast shapeCasts_S8_S1x8 fun i => Ideal.exp (a i - (Finset.univ : Finset S8.Idx).fold max ⊥ a))

end Weights

end Cert.KernelIdeal.Body

end
-- ==== Proof.KernelBlock.lean ====
/-
  A block of the result against the five arrays.

  At a grid point the body sees a 1024-row block of the input (all 2048 columns), the matching 1024 gate words, the
  logits as one row of eight, a 256-column block of each of the eight matrices and the matching 256 biases of each.
  Entry (r, c) of what it writes is then entry (R, C) of the weighted mixture, R and C the block's row and column
  offsets plus r and c: each of the eight terms reads row R of the gated input, column C of matrix k and bias (k, C),
  and its weight moves inside the rectifier because it is a nonnegative real.
-/
import proofs.«139095_g51634096833270_cont_9to1_m_282_47_alg».proof.Proof.KernelOp

set_option maxRecDepth 16384

noncomputable section

namespace Cert.KernelIdeal.Body

open Cert.KernelIdeal Cert.KernelIdeal.Gen Idealize.ShloMosaic Idealize.ShloMosaic.ValueIdx

/-- A column [a, 1] broadcast over b columns reads, at (p, c), the column's entry p. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE GATED ROWS: entry (r, j) of the block the products use is the input's entry times the row's gate, the gate word
    tested against zero and read as 0 or 1. -/
theorem gated_apply (v16 : Vec Ideal S1024x2048 .f32) (v17 : Vec Ideal S1024x1 .i32) (r : Fin 1024) (j : Fin 2048) :
    k0_pay3 (F := Ideal) v16 v17 (ix2 r j)
      = v16 (ix2 r j) * FloatOps.sitofp (F := Ideal) .f32 ((IntOp.cmpi .ne (v17 (ix2 r 0)) 0#32).setWidth 32) := by
  unfold k0_pay3
  rw [truncf_apply, mulf_apply, broadcastTo_col_apply, shapeCast_self]
  rfl

/-- A load of plane k of the eight staged column blocks reads, at (0, j, q), the staged entry (k, j, q). -/
theorem ld_plane3 (x3 : Vec Ideal S8x2048x256 .f32) (k : ℕ) (hk : k < 8)
    (inb : ∀ a, (![k, 0, 0] : Fin 3 → ℕ) a + S1x2048x256.size a ≤ S8x2048x256.size a) (j : Fin 2048) (q : Fin 256) :
    View.ld x3 (Rect.unit (s := S8x2048x256) ![k, 0, 0] S1x2048x256.size inb) (ix3 0 j q) = x3 (ix3 ⟨k, hk⟩ j q) := by
  show x3 ((Rect.unit (s := S8x2048x256) ![k, 0, 0] S1x2048x256.size inb).emb (ix3 0 j q)) = _
  refine congrArg x3 (funext fun a => Fin.ext ?_)
  match a with
  | ⟨0, _⟩ => show k + 1 * 0 = k; omega
  | ⟨1, _⟩ => show 0 + 1 * j.val = j.val; omega
  | ⟨2, _⟩ => show 0 + 1 * q.val = q.val; omega

/-- A load of bias row k of the eight staged ones reads, at (0, 0, q), the staged entry (k, 0, q). -/
theorem ld_plane4 (x4 : Vec Ideal S8x1x256 .f32) (k : ℕ) (hk : k < 8)
    (inb : ∀ a, (![k, 0, 0] : Fin 3 → ℕ) a + S1x1x256.size a ≤ S8x1x256.size a) (q : Fin 256) :
    View.ld x4 (Rect.unit (s := S8x1x256) ![k, 0, 0] S1x1x256.size inb) (ix3 0 0 q) = x4 (ix3 ⟨k, hk⟩ 0 q) := by
  show x4 ((Rect.unit (s := S8x1x256) ![k, 0, 0] S1x1x256.size inb).emb (ix3 0 0 q)) = _
  refine congrArg x4 (funext fun a => Fin.ext ?_)
  match a with
  | ⟨0, _⟩ => show k + 1 * 0 = k; omega
  | ⟨1, _⟩ => show 0 + 1 * 0 = 0; omega
  | ⟨2, _⟩ => show 0 + 1 * q.val = q.val; omega

section Block
variable (x0 : Vec Ideal S1024x2048 .f32) (x1 : Vec Ideal S1024x1 .i32) (x2 : Vec Ideal S1x8 .f32)
  (x3 : Vec Ideal S8x2048x256 .f32) (x4 : Vec Ideal S8x1x256 .f32)
  (A0 : S4096x2048.Idx → EReal) (A1 : S4096.Idx → BitVec 1) (A2 : S8.Idx → EReal)
  (A3 : S8x2048x2048.Idx → EReal) (A4 : S8x2048.Idx → EReal)
  (r : Fin 1024) (q : Fin 256) (R : Fin 4096) (C : Fin 2048)
  (h0 : ∀ j : Fin 2048, x0 (ix2 r j) = A0 (ix2 R j))
  (h1 : x1 (ix2 r 0) = (A1 (ix1 R)).setWidth 32)
  (h2 : x2 = shapeCast S1x8 A2 shapeCasts_S8_S1x8)
  (h3 : ∀ (k : Fin 8) (j : Fin 2048), x3 (ix3 k j q) = A3 (ix3 k j C))
  (h4 : ∀ k : Fin 8, x4 (ix3 k 0 q) = A4 (ix2 k C))
  (hfin : ∀ i, ∃ w : ℝ, A2 i = w)

include h0 h1 h2 h3 h4 hfin in
/-- TERM k OF THE BLOCK AT (r, c) is term k of the mixture at (R, C): the staged blocks are the arrays' rows R, columns C;
    the picked weight is the softmax weight, a nonnegative real, so it moves inside the rectifier. -/
theorem term_value (k : ℕ) (hk : k < 8)
    (inb3 : ∀ a, (![k, 0, 0] : Fin 3 → ℕ) a + S1x2048x256.size a ≤ S8x2048x256.size a)
    (inb4 : ∀ a, (![k, 0, 0] : Fin 3 → ℕ) a + S1x1x256.size a ≤ S8x1x256.size a) :
    opTerm (pick (k0_pay2 (View.ld x2 r0_0)) (BitVec.ofNat 32 k)) (k0_pay3 (View.ld x0 r0_1) (View.ld x1 r0_2))
        (View.ld x3 (Rect.unit (s := S8x2048x256) ![k, 0, 0] S1x2048x256.size inb3))
        (View.ld x4 (Rect.unit (s := S8x1x256) ![k, 0, 0] S1x1x256.size inb4)) (ix2 r q)
      = Mixture.weight A2 (ix1 ⟨k, hk⟩) *
          max ((∑ j : Fin 2048, (A0 (ix2 R j) * Mixture.gate (A1 (ix1 R))) * A3 (ix3 ⟨k, hk⟩ j C)) + A4 (ix2 ⟨k, hk⟩ C)) 0 := by
  rw [opTerm_apply, pick_eq _ k hk, View.ld_unit_zero (S := S1x8) Cert.LibLoads.zeros2,
    View.ld_unit_zero (S := S1024x2048) Cert.LibLoads.zeros2, View.ld_unit_zero (S := S1024x1) Cert.LibLoads.zeros2,
    h2, weights_row, ld_plane4 _ k hk, h4]
  obtain ⟨w, hw0, hw⟩ := Mixture.weight_real A2 hfin (ix1 ⟨k, hk⟩)
  rw [hw, Mixture.scale_relu w hw0]
  refine congrArg (fun s => (w : EReal) * max (s + A4 (ix2 ⟨k, hk⟩ C)) 0) (Finset.sum_congr rfl fun j _ => ?_)
  rw [gated_apply, ld_plane3 _ k hk, h0, h1, h3, Mixture.gate_word]

include h0 h1 h2 h3 h4 hfin in
/-- THE BLOCK AT (r, c) IS THE MIXTURE AT (R, C). -/
theorem block_value : out0_5 x0 x1 x2 x3 x4 (ix2 r q) = Mixture.mix A0 A1 A2 A3 A4 (ix2 R C) := by
  rw [out_eq_terms]
  simp only [addf_apply]
  rw [term_value x0 x1 x2 x3 x4 A0 A1 A2 A3 A4 r q R C h0 h1 h2 h3 h4 hfin 0 (by omega),
    term_value x0 x1 x2 x3 x4 A0 A1 A2 A3 A4 r q R C h0 h1 h2 h3 h4 hfin 1 (by omega),
    term_value x0 x1 x2 x3 x4 A0 A1 A2 A3 A4 r q R C h0 h1 h2 h3 h4 hfin 2 (by omega),
    term_value x0 x1 x2 x3 x4 A0 A1 A2 A3 A4 r q R C h0 h1 h2 h3 h4 hfin 3 (by omega),
    term_value x0 x1 x2 x3 x4 A0 A1 A2 A3 A4 r q R C h0 h1 h2 h3 h4 hfin 4 (by omega),
    term_value x0 x1 x2 x3 x4 A0 A1 A2 A3 A4 r q R C h0 h1 h2 h3 h4 hfin 5 (by omega),
    term_value x0 x1 x2 x3 x4 A0 A1 A2 A3 A4 r q R C h0 h1 h2 h3 h4 hfin 6 (by omega),
    term_value x0 x1 x2 x3 x4 A0 A1 A2 A3 A4 r q R C h0 h1 h2 h3 h4 hfin 7 (by omega)]
  unfold Mixture.mix
  rw [Fin.sum_univ_eight]
  rfl

end Block

end Cert.KernelIdeal.Body

end
-- ==== Proof.KernelValue.lean ====
/-
  From blocks to the whole array.

  The grid is 8 column tiles by 4 row tiles.  At a point the output block is rows [1024·mi, 1024·mi + 1024) and columns
  [256·n, 256·n + 256); the input block is the same rows, the gate words the same rows, the matrices' and biases' blocks
  the same columns, the logits whole.  Each point writes its block of the mixture, the 32 blocks tile the array, so the
  array ends as the mixture of the five argument arrays.
-/
import proofs.«139095_g51634096833270_cont_9to1_m_282_47_alg».proof.Proof.KernelBlock
import proofs.«139095_g51634096833270_cont_9to1_m_282_47_alg».proof.Proof.Gen.KernelIdeal.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The index maps over the 32 points: the input and the gate words move with the output's row tile, the matrices and the
    biases with its column tile, the logits do not move. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = win0_5.index t (1 : Fin 2)
    ∧ win0_4.index t (0 : Fin 3) = 0 ∧ win0_4.index t (1 : Fin 3) = 0 ∧ win0_4.index t (2 : Fin 3) = win0_5.index t (1 : Fin 2)
    ∧ win0_5.index t (0 : Fin 2) ≤ 3 ∧ win0_5.index t (1 : Fin 2) ≤ 7 :=
  (by decide +kernel : ∀ t : Fin grid0.N, _)

/-- Every one of the 4 × 8 output blocks is some point's. -/
theorem idx_onto : ∀ (q0 : Fin 4) (q1 : Fin 8), ∃ t : Fin cfg0.N, win0_5.index t = ![q0.val, q1.val] :=
  (by decide +kernel : ∀ (q0 : Fin 4) (q1 : Fin 8), ∃ t : Fin grid0.N, win0_5.index t = ![q0.val, q1.val])

/-- The logits reach the region as one row of eight. -/
theorem V_logits (c : Dev nD) :
    (V m c main_call0_v1 : S1x8.Idx → EReal) = shapeCast S1x8 (m ((c : Thread nD τ).loc main_arg2)) shapeCasts_S8_S1x8 := by
  dsimp only [Gen.V, Gen.hostOps0]
  after_results
  rfl

/-- The biases reach it with a unit axis between the map and the column. -/
theorem V_bias (c : Dev nD) :
    (V m c main_call0_v2 : S8x1x2048.Idx → EReal) = shapeCast S8x1x2048 (m ((c : Thread nD τ).loc main_arg4)) shapeCasts_S8x2048_S8x1x2048 := by
  dsimp only [Gen.V, Gen.hostOps0]
  after_results
  rfl

/-- The gate bits reach it as a column of words. -/
theorem V_gate (c : Dev nD) :
    (V m c main_call0_v3 : S4096x1.Idx → BitVec 32) = extui 32 (shapeCast S4096x1 (m ((c : Thread nD τ).loc main_arg1)) shapeCasts_S4096_S4096x1) natLt_1_32 := by
  dsimp only [Gen.V, Gen.hostOps0]
  after_results
  rfl

/-- The mixture of the five argument arrays as launched on core c. -/
abbrev G (c : Dev nD) : S4096x2048.Idx → EReal :=
  Mixture.mix (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT t WRITES BACK is block t of the mixture of the argument arrays (the logits being real numbers). -/
theorem flushed_eq (c : Dev nD) (hfin : ∀ l : S8.Idx, ∃ w : ℝ, (m ((c : Thread nD τ).loc main_arg2) : S8.Idx → EReal) l = (w : EReal)) (t : Fin cfg0.N) :
    (dats m 0 c).flushed 5 t = ((cfg0.win 5).blk t).view.read (Elt Ideal) (G m c) := by
  show (cfg0.win 5).cut (grid0.coords t) ((dats m 0 c).after 5 t) = _
  rw [after0_5]
  obtain ⟨e00, e01, e10, e11, e20, e21, e30, e31, e32, e40, e41, e42, b0, b1⟩ := idx_facts t
  funext y
  obtain ⟨r, q, rfl⟩ : ∃ (r : Fin 1024) (q : Fin 256), y = ix2 r q := ⟨y 0, y 1, eq_ix2 y⟩
  have hr := r.isLt
  have hq := q.isLt
  obtain ⟨R, hR⟩ : ∃ R : Fin 4096, R.val = win0_5.index t (0 : Fin 2) * 1024 + r.val := ⟨⟨_, by omega⟩, rfl⟩
  obtain ⟨C, hC⟩ : ∃ C : Fin 2048, C.val = win0_5.index t (1 : Fin 2) * 256 + q.val := ⟨⟨_, by omega⟩, rfl⟩
  have hemb : ((cfg0.win 5).blk t).view.emb (ix2 r q) = ix2 R C := funext fun a => Fin.ext (by
    match a with
    | ⟨0, _⟩ =>
      show win0_5.index t (0 : Fin 2) * 1024 + 1 * r.val = R.val
      rw [hR]; omega
    | ⟨1, _⟩ =>
      show win0_5.index t (1 : Fin 2) * 256 + 1 * q.val = C.val
      rw [hC]; omega)
  show out0_5 (iblk m c 0 t) (iblk m c 1 t) (iblk m c 2 t) (iblk m c 3 t) (iblk m c 4 t) (ix2 r q)
    = G m c (((cfg0.win 5).blk t).view.emb (ix2 r q))
  rw [hemb]
  refine Body.block_value (iblk m c 0 t) (iblk m c 1 t) (iblk m c 2 t) (iblk m c 3 t) (iblk m c 4 t) _ _ _ _ _ r q R C
    ?_ ?_ ?_ ?_ ?_ hfin
  · intro j
    show V m c main_arg0 (((cfg0.win 0).blk t).view.emb (ix2 r j)) = _
    rw [V_main_arg0]
    refine congrArg _ (funext fun a => Fin.ext ?_)
    match a with
    | ⟨0, _⟩ =>
      show win0_0.index t (0 : Fin 2) * 1024 + 1 * r.val = R.val
      rw [e00, hR]; omega
    | ⟨1, _⟩ =>
      show win0_0.index t (1 : Fin 2) * 2048 + 1 * j.val = j.val
      rw [e01]; omega
  · show V m c main_call0_v3 (((cfg0.win 1).blk t).view.emb (ix2 r 0)) = _
    rw [V_gate]
    refine congrArg (fun b : BitVec 1 => b.setWidth 32) ?_
    refine shapeCast_apply (s := S4096) (t := S4096x1) _ _ _ (ix1 R) ?_
    rw [Shape.rowMajor_val_one, Shape.rowMajor_val_two]
    show R.val = (win0_1.index t (0 : Fin 2) * 1024 + 1 * r.val) * 1 + (win0_1.index t (1 : Fin 2) * 1 + 1 * 0)
    rw [e10, e11, hR]; omega
  · funext z
    obtain ⟨u, v, rfl⟩ : ∃ (u : Fin 1) (v : Fin 8), z = ix2 u v := ⟨z 0, z 1, eq_ix2 z⟩
    show V m c main_call0_v1 (((cfg0.win 2).blk t).view.emb (ix2 u v)) = _
    rw [V_logits]
    refine congrArg _ (funext fun a => Fin.ext ?_)
    match a with
    | ⟨0, _⟩ =>
      show win0_2.index t (0 : Fin 2) * 1 + 1 * u.val = u.val
      rw [e20]; omega
    | ⟨1, _⟩ =>
      show win0_2.index t (1 : Fin 2) * 8 + 1 * v.val = v.val
      rw [e21]; omega
  · intro k j
    show V m c main_arg3 (((cfg0.win 3).blk t).view.emb (ix3 k j q)) = _
    rw [V_main_arg3]
    refine congrArg _ (funext fun a => Fin.ext ?_)
    match a with
    | ⟨0, _⟩ =>
      show win0_3.index t (0 : Fin 3) * 8 + 1 * k.val = k.val
      rw [e30]; omega
    | ⟨1, _⟩ =>
      show win0_3.index t (1 : Fin 3) * 2048 + 1 * j.val = j.val
      rw [e31]; omega
    | ⟨2, _⟩ =>
      show win0_3.index t (2 : Fin 3) * 256 + 1 * q.val = C.val
      rw [e32, hC]; omega
  · intro k
    show V m c main_call0_v2 (((cfg0.win 4).blk t).view.emb (ix3 k 0 q)) = _
    rw [V_bias]
    refine shapeCast_apply (s := S8x2048) (t := S8x1x2048) _ _ _ (ix2 k C) ?_
    rw [Shape.rowMajor_val_two, Shape.rowMajor_val_three]
    show k.val * 2048 + C.val
      = ((win0_4.index t (0 : Fin 3) * 8 + 1 * k.val) * 1 + (win0_4.index t (1 : Fin 3) * 1 + 1 * 0)) * 2048
        + (win0_4.index t (2 : Fin 3) * 256 + 1 * q.val)
    rw [e40, e41, e42, hC]; omega

/-- An index of the array is in point t's block iff each coordinate is in the block's range on its axis. -/
theorem mem_blk (t : Fin cfg0.N) (i : S4096x2048.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v0).slice (win0_5.rect t)).set ↔ _
  rw [View.set_slice_whole, Rect.mem_set_unit]
  exact Iff.rfl

/-- THE 32 BLOCKS TILE THE ARRAY: entry (R, C) is in the block of the point with row tile R / 1024, column tile C / 256. -/
theorem cover (i : S4096x2048.Idx) : ∃ t : Fin cfg0.N, (cfg0.win 5).flush t = true ∧ i ∈ ((cfg0.win 5).blk t).view.set := by
  have hi0 : (i 0).val < 4096 := (i 0).isLt
  have hi1 : (i 1).val < 2048 := (i 1).isLt
  obtain ⟨t, ht⟩ := idx_onto ⟨(i 0).val / 1024, by omega⟩ ⟨(i 1).val / 256, by omega⟩
  have q0 : win0_5.index t (0 : Fin 2) = (i 0).val / 1024 := congrFun ht 0
  have q1 : win0_5.index t (1 : Fin 2) = (i 1).val / 256 := congrFun ht 1
  refine ⟨t, flush0_5 t, ?_⟩
  rw [mem_blk]
  intro a
  match a with
  | ⟨0, _⟩ =>
    show win0_5.index t (0 : Fin 2) * 1024 ≤ (i 0).val ∧ (i 0).val < win0_5.index t (0 : Fin 2) * 1024 + 1024
    omega
  | ⟨1, _⟩ =>
    show win0_5.index t (1 : Fin 2) * 256 ≤ (i 1).val ∧ (i 1).val < win0_5.index t (1 : Fin 2) * 256 + 256
    omega

/-- THE ARRAY AFTER THE RUN is the mixture. -/
theorem final (c : Dev nD) (hfin : ∀ l : S8.Idx, ∃ w : ℝ, (m ((c : Thread nD τ).loc main_arg2) : S8.Idx → EReal) l = (w : EReal)) :
    (dats m 0 c).arrAt 5 cfg0.N = G m c :=
  (dats m 0 c).arrAt_eq_of_cover 5 (G m c) (fun t _ => flushed_eq m c hfin t) cover

/-- THE RUN: every weakly fair execution ends with the result array at the mixture of the argument arrays, the arguments
    unchanged — given real logits. -/
theorem run (hfin : ∀ (c : Dev nD) (l : S8.Idx), ∃ w : ℝ, (m ((c : Thread nD τ).loc main_arg2) : S8.Idx → EReal) l = (w : EReal)) :
    θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hfin c)), (h c).2⟩) (Cert.KernelIdeal.Value.run_blocks m ρ)

end Cert.KernelIdeal.Whole

end
-- ==== Proof.RefValue.lean ====
/-
  The reference's result, index by index.

  The reference forms the softmax weights of the eight logits, gates every row of the input by its bit, and adds to a zero
  array, map after map, weight k times the rectified (gated input · W_k + b_k) — each map's matrix, bias row and weight
  sliced out of the stacked arrays.  Read at entry (R, C) over the extended reals this is the mixture's defining sum.
-/
import proofs.«139095_g51634096833270_cont_9to1_m_282_47_alg».proof.Proof.Gen.ReferenceIdeal.Read
import proofs.«139095_g51634096833270_cont_9to1_m_282_47_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.ReferenceIdeal.RefMix

open Cert.ReferenceIdeal Cert.ReferenceIdeal.Gen Cert.ReferenceIdeal.Read Idealize.ShloMosaic Idealize.ShloMosaic.ValueIdx

/-! ## One map's contribution, for any float instance -/

section Terms
variable {F : FTy → Type} [FloatOps F]

/-- Map k's contribution: weight k (sliced out of the weights, made a scalar, spread over the array) times the rectified sum
    of the gated input times matrix k (sliced out of the stack) and bias row k (sliced out, spread over the rows). -/
def refTerm (k : ℕ) (hW : S8x2048x2048.Slices ![k, 0, 0] S1x2048x2048) (hb : S8x2048.Slices ![k, 0] S1x2048)
    (hq : S8.Slices ![k] S1) (xm : FVec F S4096x2048 .f32) (p : FVec F S8 .f32) (W : FVec F S8x2048x2048 .f32)
    (b : FVec F S8x2048 .f32) : FVec F S4096x2048 .f32 :=
  mulf (broadcastInDim S4096x2048 ![] bcast_S_S4096x2048 (shapeCast _ (extractStridedSlice S1 ![k] p hq) shapeCasts_S1_S_))
    (maximumf
      (addf
        (Host.dotGeneral dot_S4096x2048_S2048x2048_S4096x2048_1_0_0_1_n_n none xm
          (shapeCast _ (extractStridedSlice S1x2048x2048 ![k, 0, 0] W hW) shapeCasts_S1x2048x2048_S2048x2048))
        (broadcastInDim S4096x2048 ![0, 1] bcast_S1x2048_S4096x2048_0_1
          (broadcastInDim S1x2048 ![1] bcast_S2048_S1x2048_1
            (shapeCast _ (extractStridedSlice S1x2048 ![k, 0] b hb) shapeCasts_S1x2048_S2048))))
      (broadcastInDim S4096x2048 ![] bcast_S_S4096x2048 (constant S_ .f32 0x00000000#32)))

/-- THE RESULT is the eight contributions added, in order, to the zero array. -/
theorem result_eq_terms (x0 : FVec F S4096x2048 .f32) (x1 : S4096.Idx → BitVec 1) (x2 : FVec F S8 .f32)
    (x3 : FVec F S8x2048x2048 .f32) (x4 : FVec F S8x2048 .f32) :
    val_main_v126 (F := F) x0 x1 x2 x3 x4 =
      (addf (addf (addf (addf (addf (addf (addf (addf (val_main_v14 (F := F))
      (refTerm 0 slices_S8x2048x2048_S1x2048x2048_0_0_0 slices_S8x2048_S1x2048_0_0 slices_S8_S1_0 (val_main_v13 (F := F) x0 x1) (val_main_v9 (F := F) x2) x3 x4))
      (refTerm 1 slices_S8x2048x2048_S1x2048x2048_1_0_0 slices_S8x2048_S1x2048_1_0 slices_S8_S1_1 (val_main_v13 (F := F) x0 x1) (val_main_v9 (F := F) x2) x3 x4))
      (refTerm 2 slices_S8x2048x2048_S1x2048x2048_2_0_0 slices_S8x2048_S1x2048_2_0 slices_S8_S1_2 (val_main_v13 (F := F) x0 x1) (val_main_v9 (F := F) x2) x3 x4))
      (refTerm 3 slices_S8x2048x2048_S1x2048x2048_3_0_0 slices_S8x2048_S1x2048_3_0 slices_S8_S1_3 (val_main_v13 (F := F) x0 x1) (val_main_v9 (F := F) x2) x3 x4))
      (refTerm 4 slices_S8x2048x2048_S1x2048x2048_4_0_0 slices_S8x2048_S1x2048_4_0 slices_S8_S1_4 (val_main_v13 (F := F) x0 x1) (val_main_v9 (F := F) x2) x3 x4))
      (refTerm 5 slices_S8x2048x2048_S1x2048x2048_5_0_0 slices_S8x2048_S1x2048_5_0 slices_S8_S1_5 (val_main_v13 (F := F) x0 x1) (val_main_v9 (F := F) x2) x3 x4))
      (refTerm 6 slices_S8x2048x2048_S1x2048x2048_6_0_0 slices_S8x2048_S1x2048_6_0 slices_S8_S1_6 (val_main_v13 (F := F) x0 x1) (val_main_v9 (F := F) x2) x3 x4))
      (refTerm 7 slices_S8x2048x2048_S1x2048x2048_7_0_0 slices_S8x2048_S1x2048_7_0 slices_S8_S1_7 (val_main_v13 (F := F) x0 x1) (val_main_v9 (F := F) x2) x3 x4)) := rfl

end Terms

/-! ## Read at an entry, over the extended reals -/

section AtIdeal

/-- A scalar made of entry k of a vector of eight and spread over the array reads that entry everywhere. -/
theorem scalar_bcast (k : ℕ) (hk : k < 8) (hq : S8.Slices ![k] S1) (p : FVec Ideal S8 .f32) (i : S4096x2048.Idx) :
    broadcastInDim S4096x2048 ![] bcast_S_S4096x2048 (shapeCast _ (extractStridedSlice S1 ![k] p hq) shapeCasts_S1_S_) i
      = p (ix1 ⟨k, hk⟩) := by
  rw [broadcastInDim_apply _ bcast_S_S4096x2048 _ i ix0 (fun a => a.elim0),
    shapeCast_apply _ shapeCasts_S1_S_ ix0 (ix1 (0 : Fin 1)) (by
      rw [Shape.rowMajor_val_one]
      have h1 : S_.numel = 1 := rfl
      have := (S_.rowMajor ix0).isLt
      show 0 = (S_.rowMajor ix0).val
      omega)]
  exact extractStridedSlice_apply ![k] p hq (ix1 0) (ix1 ⟨k, hk⟩) (fun a => match a with
    | ⟨0, _⟩ => by show k = k + 0; omega)

/-- The zero scalar spread over the array is zero everywhere. -/
theorem zero_bcast (i : S4096x2048.Idx) :
    broadcastInDim S4096x2048 ![] bcast_S_S4096x2048 (constant (F := Ideal) S_ .f32 0x00000000#32) i = (0 : EReal) := by
  rw [broadcastInDim_apply _ bcast_S_S4096x2048 _ i ix0 (fun a => a.elim0), constant_apply, Ideal.ofBits_zero_f32]

/-- THE WHOLE PRODUCT AT AN ENTRY: the sum over the 2048 contracted positions of row R of the left factor times column C of
    the right one. -/
theorem dot_entry (A : FVec Ideal S4096x2048 .f32) (B : FVec Ideal S2048x2048 .f32) (R : Fin 4096) (C : Fin 2048) :
    Host.dotGeneral dot_S4096x2048_S2048x2048_S4096x2048_1_0_0_1_n_n none A B (ix2 R C) = ∑ j : Fin 2048, A (ix2 R j) * B (ix2 j C) := by
  simp only [Host.dotGeneral]
  rw [Ideal.dotGeneral_apply, ← Equiv.sum_comp (ValueIdx.contrEquiv1 dot_S4096x2048_S2048x2048_S4096x2048_1_0_0_1_n_n 2048 rfl rfl).symm]
  refine Finset.sum_congr rfl fun k _ => ?_
  have hk := ValueIdx.contrEquiv1_symm_val dot_S4096x2048_S2048x2048_S4096x2048_1_0_0_1_n_n 2048 rfl rfl k
  have el : dot_S4096x2048_S2048x2048_S4096x2048_1_0_0_1_n_n.lhsIdx (ix2 R C) ((ValueIdx.contrEquiv1 dot_S4096x2048_S2048x2048_S4096x2048_1_0_0_1_n_n 2048 rfl rfl).symm k) = ix2 R k :=
    funext fun a => Fin.ext (by
      match a with
      | ⟨0, _⟩ => exact lhs_main_v17_0 _ _
      | ⟨1, _⟩ => exact (lhs_main_v17_1 _ _).trans hk)
  have er : dot_S4096x2048_S2048x2048_S4096x2048_1_0_0_1_n_n.rhsIdx (ix2 R C) ((ValueIdx.contrEquiv1 dot_S4096x2048_S2048x2048_S4096x2048_1_0_0_1_n_n 2048 rfl rfl).symm k) = ix2 k C :=
    funext fun a => Fin.ext (by
      match a with
      | ⟨0, _⟩ => exact (rhs_main_v17_0 _ _).trans hk
      | ⟨1, _⟩ => exact rhs_main_v17_1 _ _)
  rw [el, er]

/-- Matrix k sliced out of the stack and flattened reads, at (j, C), the stack's entry (k, j, C). -/
theorem slab_apply (k : ℕ) (hk : k < 8) (hW : S8x2048x2048.Slices ![k, 0, 0] S1x2048x2048) (W : FVec Ideal S8x2048x2048 .f32)
    (j : Fin 2048) (C : Fin 2048) :
    shapeCast S2048x2048 (extractStridedSlice S1x2048x2048 ![k, 0, 0] W hW) shapeCasts_S1x2048x2048_S2048x2048 (ix2 j C)
      = W (ix3 ⟨k, hk⟩ j C) := by
  rw [shapeCast_1ab_ab_apply]
  exact extractStridedSlice_apply ![k, 0, 0] W hW (ix3 0 j C) (ix3 ⟨k, hk⟩ j C) (fun a => match a with
    | ⟨0, _⟩ => by show k = k + 0; omega
    | ⟨1, _⟩ => by show j.val = 0 + j.val; omega
    | ⟨2, _⟩ => by show C.val = 0 + C.val; omega)

/-- Bias row k sliced out, flattened, and spread over the rows reads, at (R, C), the biases' entry (k, C). -/
theorem bias_bcast (k : ℕ) (hk : k < 8) (hb : S8x2048.Slices ![k, 0] S1x2048) (b : FVec Ideal S8x2048 .f32)
    (R : Fin 4096) (C : Fin 2048) :
    broadcastInDim S4096x2048 ![0, 1] bcast_S1x2048_S4096x2048_0_1
        (broadcastInDim S1x2048 ![1] bcast_S2048_S1x2048_1
          (shapeCast _ (extractStridedSlice S1x2048 ![k, 0] b hb) shapeCasts_S1x2048_S2048)) (ix2 R C)
      = b (ix2 ⟨k, hk⟩ C) := by
  rw [broadcastInDim_apply _ bcast_S1x2048_S4096x2048_0_1 _ (ix2 R C) (ix2 (0 : Fin 1) C) (fun a => match a with
      | ⟨0, _⟩ => by show 0 = if (1 : ℕ) = 1 then 0 else R.val; rw [if_pos rfl]
      | ⟨1, _⟩ => by show C.val = if (2048 : ℕ) = 1 then 0 else C.val; rw [if_neg (by decide)]),
    broadcastInDim_apply _ bcast_S2048_S1x2048_1 _ (ix2 (0 : Fin 1) C) (ix1 C) (fun a => match a with
      | ⟨0, _⟩ => by show C.val = if (2048 : ℕ) = 1 then 0 else C.val; rw [if_neg (by decide)]),
    shapeCast_1a_a_apply]
  exact extractStridedSlice_apply ![k, 0] b hb (ix2 0 C) (ix2 ⟨k, hk⟩ C) (fun a => match a with
    | ⟨0, _⟩ => by show k = k + 0; omega
    | ⟨1, _⟩ => by show C.val = 0 + C.val; omega)

/-- ONE MAP'S CONTRIBUTION AT (R, C): weight k times the rectified sum over j of (gated row R)_j · W_k(j, C), plus b_k(C). -/
theorem refTerm_apply (k : ℕ) (hk : k < 8) (hW : S8x2048x2048.Slices ![k, 0, 0] S1x2048x2048)
    (hb : S8x2048.Slices ![k, 0] S1x2048) (hq : S8.Slices ![k] S1) (xm : FVec Ideal S4096x2048 .f32) (p : FVec Ideal S8 .f32)
    (W : FVec Ideal S8x2048x2048 .f32) (b : FVec Ideal S8x2048 .f32) (R : Fin 4096) (C : Fin 2048) :
    refTerm k hW hb hq xm p W b (ix2 R C)
      = p (ix1 ⟨k, hk⟩) * max ((∑ j : Fin 2048, xm (ix2 R j) * W (ix3 ⟨k, hk⟩ j C)) + b (ix2 ⟨k, hk⟩ C)) 0 := by
  unfold refTerm
  rw [mulf_apply, maximumf_apply, addf_apply, scalar_bcast k hk, dot_entry, bias_bcast k hk, zero_bcast]
  simp only [slab_apply k hk]

end AtIdeal

/-! ## The weights, the gated input, and the result -/

section Result

/-- The reference's largest logit: its maximum-reduction from -∞, capped below by -∞ again, is the fold of max. -/
theorem ref_top (a : FVec Ideal S8 .f32) (j : S_.Idx) : val_main_v1 (F := Ideal) a j = Mixture.top a := by
  have hb : Ideal.ofBits .f32 0xFF800000#32 = (⊥ : EReal) := by simp [Ideal.ofBits, Ideal.ieee]
  have h0 : val_main_v0 (F := Ideal) a j = (Finset.univ : Finset S8.Idx).fold max ⊥ a := by
    unfold val_main_v0
    refine (Host.reduce_eq_fold FloatOps.maximumf a (val_main_cst (F := Ideal)) reducesTo_S8_S_d0 h_S_ j).trans ?_
    rw [Finset.filter_true_of_mem fun i _ => funext fun b => b.elim0]
    have hc : val_main_cst (F := Ideal) (Shape.Idx.first h_S_) = (⊥ : EReal) := hb
    rw [hc]
    rfl
  rw [val_main_v1_apply, val_main_cst_0_apply, h0]
  show max (Ideal.ofBits .f32 0xFF800000#32) _ = _
  rw [hb]
  exact max_eq_right bot_le

/-- THE REFERENCE'S WEIGHTS ARE THE SOFTMAX OF THE LOGITS. -/
theorem ref_weights (a : FVec Ideal S8 .f32) (i : S8.Idx) : val_main_v9 (F := Ideal) a i = Mixture.weight a i := by
  have h5 : ∀ j, val_main_v5 (F := Ideal) a j = Mixture.expw a j := fun j => by
    rw [val_main_v5_apply, val_main_v4_apply, val_main_v3_apply, val_main_v2_apply, ref_top]
    rfl
  rw [val_main_v9_apply, val_main_v8_apply, val_main_v7_apply, val_main_v6_apply, val_main_cst_1_apply]
  simp only [h5]
  show Ideal.div (Mixture.expw a i) (Ideal.ofBits .f32 0x00000000#32 + ∑ j, Mixture.expw a j) = _
  rw [Ideal.ofBits_zero_f32, zero_add]
  rfl

/-- THE REFERENCE'S GATED INPUT at (R, j) is the input's entry times row R's gate. -/
theorem ref_gated (x0 : FVec Ideal S4096x2048 .f32) (x1 : S4096.Idx → BitVec 1) (R : Fin 4096) (j : Fin 2048) :
    val_main_v13 (F := Ideal) x0 x1 (ix2 R j) = x0 (ix2 R j) * Mixture.gate (x1 (ix1 R)) := by
  rw [val_main_v13_apply, val_main_v12_apply, val_main_v11_apply, val_main_v10_apply]
  have hidx : idx_main_v10 (idx_main_v12 (ix2 R j)) = ix1 R := funext fun a => by
    match a with
    | ⟨0, _⟩ => rfl
  rw [hidx]
  rfl

/-- THE REFERENCE'S RESULT AT (R, C) IS THE MIXTURE THERE. -/
theorem result_value (x0 : FVec Ideal S4096x2048 .f32) (x1 : S4096.Idx → BitVec 1) (x2 : FVec Ideal S8 .f32)
    (x3 : FVec Ideal S8x2048x2048 .f32) (x4 : FVec Ideal S8x2048 .f32) (R : Fin 4096) (C : Fin 2048) :
    val_main_v126 (F := Ideal) x0 x1 x2 x3 x4 (ix2 R C) = Mixture.mix x0 x1 x2 x3 x4 (ix2 R C) := by
  rw [result_eq_terms]
  simp only [addf_apply]
  rw [refTerm_apply 0 (by omega), refTerm_apply 1 (by omega), refTerm_apply 2 (by omega), refTerm_apply 3 (by omega),
    refTerm_apply 4 (by omega), refTerm_apply 5 (by omega), refTerm_apply 6 (by omega), refTerm_apply 7 (by omega),
    val_main_v14_apply, val_main_cst_2_apply]
  simp only [ref_weights, ref_gated, Ideal.ofBits_def, Ideal.ofBits_zero_f32, zero_add]
  unfold Mixture.mix
  rw [Fin.sum_univ_eight]
  rfl

/-- The reference's result array is the mixture of its argument arrays. -/
theorem result_eq (x0 : FVec Ideal S4096x2048 .f32) (x1 : S4096.Idx → BitVec 1) (x2 : FVec Ideal S8 .f32)
    (x3 : FVec Ideal S8x2048x2048 .f32) (x4 : FVec Ideal S8x2048 .f32) :
    val_main_v126 (F := Ideal) x0 x1 x2 x3 x4 = Mixture.mix x0 x1 x2 x3 x4 := by
  funext i
  obtain ⟨R, C, rfl⟩ : ∃ (R : Fin 4096) (C : Fin 2048), i = ix2 R C := ⟨i 0, i 1, eq_ix2 i⟩
  exact result_value x0 x1 x2 x3 x4 R C

end Result

end Cert.ReferenceIdeal.RefMix

end
-- ==== Proof.Finite.lean ====
/-
  The precondition, read back for the logits.

  The precondition is the conjunction of four statements "every entry of the array has absolute value below +∞", one per
  float argument.  Its second conjunct says that every logit is neither +∞ nor -∞: a real number.
-/
import proofs.«139095_g51634096833270_cont_9to1_m_282_47_alg».proof.Defs
import proofs.«139095_g51634096833270_cont_9to1_m_282_47_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- A rank-zero array has one index. -/
instance : Subsingleton Cert.Pre_finite_inputs.S_.Idx := ⟨fun a b => funext fun d => d.elim0⟩

/-- An extended real whose absolute value compares below +∞ is a real number. -/
theorem real_of_abs_lt (x : EReal) (h : Ideal.cmp .olt (max x (-x)) (Ideal.ofBits .f32 0x7F800000#32) = 1#1) :
    ∃ r : ℝ, x = r := by
  have hinf : Ideal.ofBits .f32 0x7F800000#32 = (⊤ : EReal) := by simp [Ideal.ofBits, Ideal.ieee]
  rw [hinf] at h
  induction x using EReal.rec with
  | bot => simp [Ideal.cmp] at h
  | top => simp [Ideal.cmp] at h
  | coe r => exact ⟨r, rfl⟩

/-- UNDER THE PRECONDITION EVERY LOGIT IS A REAL NUMBER. -/
theorem logits_real [Cert.Pre_finite_inputs.Facts] (a0 : FVec Ideal S4096x2048 .f32) (a1 : IVec S4096 1)
    (a2 : FVec Ideal S8 .f32) (a3 : FVec Ideal S8x2048x2048 .f32) (a4 : FVec Ideal S8x2048 .f32)
    (h : Cert.Pre_finite_inputs.fn (F := Ideal) a0 a1 a2 a3 a4 = fun _ => 1#1) (i : S8.Idx) :
    ∃ r : ℝ, a2 i = (r : EReal) := by
  have h0 := congrFun h ValueIdx.ix0
  dsimp only [Cert.Pre_finite_inputs.fn, Cert.Pre_finite_inputs.fn_part1] at h0
  obtain ⟨h13, -⟩ := IntOp.andi_eq_one.1 h0
  obtain ⟨h8, -⟩ := IntOp.andi_eq_one.1 h13
  obtain ⟨-, h7⟩ := IntOp.andi_eq_one.1 h8
  have h6 := Host.reduce_andi_all _ _ _ _ _ h7 i
  exact real_of_abs_lt (a2 i) h6

end Cert.Finite

end
-- ==== Proof.lean ====
/-
  The kernel and the reference compute one function of their five arguments:

      out (R, C) = Σ_{k < 8} w_k · max ( Σ_{j < 2048} x (R, j) · g (R) · W (k, j, C) + b (k, C) ) 0,

  w the softmax of the eight logits and g (R) the row's 0/1 gate.  The reference computes it as written, map after map.
  The kernel tiles the result into 4 × 8 blocks of 1024 × 256; for each block it forms the weights, gates the 1024 rows
  once, and adds up  max (A·B_k · w_k + w_k · b_k) 0  over k — the weight already inside the rectifier.  The two agree over
  the extended reals because a weight is a nonnegative REAL number (the precondition makes the logits real): such a number
  distributes over any sum and commutes with max.  A block product into a zero accumulator and the reference's whole
  product are the same sum over the contracted axis; changes of float format are the identity.

  Modules: Spec (the function, the weights, the law), KernelOp (the body's terms read at an entry), KernelBlock (a block
  against the arrays), KernelValue (the 32 blocks tile the array; the kernel's run), RefValue (the reference's stages
  read at an entry), Finite (the logits are real under the precondition).
-/
import proofs.«139095_g51634096833270_cont_9to1_m_282_47_alg».proof.Defs
import proofs.«139095_g51634096833270_cont_9to1_m_282_47_alg».proof.Proof.Gen.Kernel
import proofs.«139095_g51634096833270_cont_9to1_m_282_47_alg».proof.Proof.Gen.Kernel.Skeleton
import proofs.«139095_g51634096833270_cont_9to1_m_282_47_alg».proof.Proof.Gen.Kernel.Launch
import proofs.«139095_g51634096833270_cont_9to1_m_282_47_alg».proof.Proof.Gen.Kernel.Points
import proofs.«139095_g51634096833270_cont_9to1_m_282_47_alg».proof.Proof.Gen.Kernel.Frame
import proofs.«139095_g51634096833270_cont_9to1_m_282_47_alg».proof.Proof.Gen.KernelIdeal
import proofs.«139095_g51634096833270_cont_9to1_m_282_47_alg».proof.Proof.Gen.KernelIdeal.Skeleton
import proofs.«139095_g51634096833270_cont_9to1_m_282_47_alg».proof.Proof.Gen.KernelIdeal.Launch
import proofs.«139095_g51634096833270_cont_9to1_m_282_47_alg».proof.Proof.Gen.KernelIdeal.Points
import proofs.«139095_g51634096833270_cont_9to1_m_282_47_alg».proof.Proof.Gen.KernelIdeal.Frame
import proofs.«139095_g51634096833270_cont_9to1_m_282_47_alg».proof.Proof.Gen.ReferenceIdeal
import proofs.«139095_g51634096833270_cont_9to1_m_282_47_alg».proof.Proof.Gen.Pre_finite_inputs
import proofs.«139095_g51634096833270_cont_9to1_m_282_47_alg».proof.Proof.Gen.KernelIdeal.Value
import proofs.«139095_g51634096833270_cont_9to1_m_282_47_alg».proof.Proof.Gen.ReferenceIdeal.Run
import proofs.«139095_g51634096833270_cont_9to1_m_282_47_alg».proof.Proof.Gen.ReferenceIdeal.Read
import proofs.«139095_g51634096833270_cont_9to1_m_282_47_alg».proof.Proof.KernelValue
import proofs.«139095_g51634096833270_cont_9to1_m_282_47_alg».proof.Proof.RefValue
import proofs.«139095_g51634096833270_cont_9to1_m_282_47_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the mixture of those arguments as their result. -/
theorem algebraic : Cert.algebraic_KernelIdeal_ReferenceIdeal := by
  intro m ρ m' ρ' hpre hagree
  have hfin : ∀ (c : Dev Cert.KernelIdeal.nD) (l : Cert.KernelIdeal.S8.Idx), ∃ w : ℝ,
      (m ((c : Thread Cert.KernelIdeal.nD Cert.KernelIdeal.τ).loc Cert.KernelIdeal.main_arg2) : Cert.KernelIdeal.S8.Idx → EReal) l = (w : EReal) :=
    fun c l => Cert.Finite.logits_real _ _ _ _ _ (hpre c) l
  refine ⟨fun c => Cert.KernelIdeal.Whole.G m c, Cert.KernelIdeal.Whole.run m ρ hfin, ?_⟩
  refine (θ_run Cert.ReferenceIdeal.defs _ _).mono (fun _ h c => ⟨?_, (h c).2⟩)
    (Cert.ReferenceIdeal.Value.run (F := Ideal) m' ρ')
  obtain ⟨e0, e1, e2, e3, e4⟩ := hagree c
  rw [(h c).1, Cert.ReferenceIdeal.Read.val_main_v126_eq, Cert.ReferenceIdeal.RefMix.result_eq, e0, e1, e2, e3, e4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
